-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S1600000 : Shape := ⟨1, ![1600000]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg6 : FVec F S64x1 .f32) (main_arg7 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x1 .f32 := Host.absf main_arg6
  let main_cst_6 : FVec F S_ .f32 := constant S_ .f32 0x7F800000#32
  let main_v20 : FVec F S64x1 .f32 := broadcastInDim S64x1 ![] bcast_S_S64x1 main_cst_6
  let main_v21 : IVec S64x1 1 := cmpf .olt main_v19 main_v20
  let main_c_7 : IVec S_ 1 := constantI S_ 1 1#1
  let main_v22 : IVec S_ 1 := (fun x v => Host.reduce IntOp.andi x v reducesTo_S64x1_S_d0_1 h_S_) main_v21 main_c_7
  let main_v23 : IVec S_ 1 := andi main_v18 main_v22
  let main_v24 : FVec F S1 .f32 := Host.absf main_arg7
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S50000x128 .f32) (main_arg1 : IVec S1600000 32) (main_arg2 : IVec S1600000 32) (main_arg3 : FVec F S1600000 .f32) (main_arg4 : FVec F S128x64 .f32) (main_arg5 : FVec F S64 .f32) (main_arg6 : FVec F S64x1 .f32) (main_arg7 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x64 .f32 := Host.absf main_arg4
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_v13 main_v16
-- ==== Kernel.lean ====
abbrev S50000x128 : Shape := ⟨2, ![50000, 128]⟩
abbrev S1600000 : Shape := ⟨1, ![1600000]⟩
abbrev S128x64 : Shape := ⟨2, ![128, 64]⟩
abbrev S64 : Shape := ⟨1, ![64]⟩
abbrev S64x1 : Shape := ⟨2, ![64, 1]⟩
abbrev S1 : Shape := ⟨1, ![1]⟩
abbrev S50000x1 : Shape := ⟨2, ![50000, 1]⟩
abbrev S5000x128 : Shape := ⟨2, ![5000, 128]⟩
abbrev S5000x1 : Shape := ⟨2, ![5000, 1]⟩
abbrev S5000x64 : Shape := ⟨2, ![5000, 64]⟩
abbrev S1x64 : Shape := ⟨2, ![1, 64]⟩
abbrev S50000 : Shape := ⟨1, ![50000]⟩
abbrev S_ : Shape := ⟨0, ![]⟩
abbrev S1600000x1 : Shape := ⟨2, ![1600000, 1]⟩
abbrev S1x1 : Shape := ⟨2, ![1, 1]⟩

abbrev nBuf : Space → Nat
  | .hbm => 28
  | .vmem => 7
  | .smem => 0
  | _ => 0

abbrev bufTy : (tb : Table) → Fin (tcTables nBuf tb) → BufTy
  | .hbm, ⟨0, _⟩ => ⟨S50000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x64, .f32⟩
  | .hbm, ⟨5, _⟩ => ⟨S64, .f32⟩
  | .hbm, ⟨6, _⟩ => ⟨S64x1, .f32⟩
  | .hbm, ⟨7, _⟩ => ⟨S1, .f32⟩
  | .hbm, ⟨8, _⟩ => ⟨S50000x1, .f32⟩
  | .hbm, ⟨9, _⟩ => ⟨S50000, .f32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000, .f32⟩
  | .hbm, ⟨19, _⟩ => ⟨S1600000, .f32⟩
  | .hbm, ⟨20, _⟩ => ⟨S_, .f32⟩
  | .hbm, ⟨21, _⟩ => ⟨S50000, .f32⟩
  | .hbm, ⟨22, _⟩ => ⟨S1600000x1, .i32⟩
  | .hbm, ⟨23, _⟩ => ⟨S50000, .f32⟩
  | .hbm, ⟨24, _⟩ => ⟨S50000x1, .f32⟩
  | .hbm, ⟨25, _⟩ => ⟨S1x1, .f32⟩
  | .hbm, ⟨26, _⟩ => ⟨S50000x1, .f32⟩
  | .hbm, ⟨27, _⟩ => ⟨S50000x1, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S64, .f32⟩
  | .local _ .vmem, ⟨4, _⟩ => ⟨S64x1, .f32⟩
  | .local _ .vmem, ⟨5, _⟩ => ⟨S5000x1, .f32⟩
  | .local _ .vmem, ⟨6, _⟩ => ⟨S5000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S64x1_S64x1_0_0 : ∀ a, (![0, 0] : Fin 2 → Nat) a + S64x1.size a ≤ S64x1.size a
  h_S64x1 : 0 < S64x1.numel
  inb_S5000x1_S5000x1_0_0 : ∀ a, (![0, 0] : Fin 2 → Nat) a + S5000x1.size a ≤ S5000x1.size a
  h_S5000x1 : 0 < S5000x1.numel
  shapeCasts_S50000x1_S50000 : S50000x1.ShapeCasts S50000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S50000 : S_.BroadcastsInDim S50000 (![] : Fin 0 → Fin S50000.rank)
  bcast_S50000_S50000x1_0 : S50000.BroadcastsInDim S50000x1 (![0] : Fin 1 → Fin S50000x1.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  dot_S5000x128_S128x64_S5000x64_1_0_0_1_n_n_wf : DotDims.WF S5000x128 S128x64 S5000x64 [1] [0] [0] [1] [] []
  dot_S5000x64_S64x1_S5000x1_1_0_0_1_n_n_wf : DotDims.WF S5000x64 S64x1 S5000x1 [1] [0] [0] [1] [] []
  gather_S50000_S1600000x1_S1600000_n_0_n_n_0_1_1_wf : GatherDims.WF S50000 S1600000x1 S1600000 [] [0] [] [0] [] 1 ![1]
  scatter_S50000_S1600000x1_S1600000_n_0_0_1_wf : ScatterDims.WF S50000 S1600000x1 S1600000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x1.size a ≤ S64x1.size a
  hwx0_3 : ∀ i : grid0.Coords, EltTy.bits .f32 = 32 ∨ (Rect.block (s := S64x1) S64x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x1.size a ≤ S50000x1.size a
  hwx0_4 : ∀ i : grid0.Coords, EltTy.bits .f32 = 32 ∨ (Rect.block (s := S50000x1) S5000x1.size (cc0_transform_4 i) (hinb0_4 i)).WholeWords (EltTy.packing .f32)

variable [Facts₀]

def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x1_S5000x1_1_0_0_1_n_n : DotDims S5000x64 S64x1 S5000x1 where
  lhsContracting := [1]
  rhsContracting := [0]
  lhsNonContracting := [0]
  rhsNonContracting := [1]
  lhsBatch := []
  rhsBatch := []
  wf := dot_S5000x64_S64x1_S5000x1_1_0_0_1_n_n_wf
def gather_S50000_S1600000x1_S1600000_n_0_n_n_0_1_1 : GatherDims S50000 S1600000x1 S1600000 where
  offsetDims := []
  collapsedSliceDims := [0]
  operandBatchingDims := []
  startIndicesBatchingDims := []
  startIndexMap := [0]
  indexVectorDim := 1
  sliceSizes := ![1]
  wf := gather_S50000_S1600000x1_S1600000_n_0_n_n_0_1_1_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S64x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S5000x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S50000x128 : Shape := ⟨2, ![50000, 128]⟩
abbrev S1600000 : Shape := ⟨1, ![1600000]⟩
abbrev S128x64 : Shape := ⟨2, ![128, 64]⟩
abbrev S64 : Shape := ⟨1, ![64]⟩
abbrev S64x1 : Shape := ⟨2, ![64, 1]⟩
abbrev S1 : Shape := ⟨1, ![1]⟩
abbrev S50000x64 : Shape := ⟨2, ![50000, 64]⟩
abbrev S1x64 : Shape := ⟨2, ![1, 64]⟩
abbrev S1600000x1 : Shape := ⟨2, ![1600000, 1]⟩
abbrev S_ : Shape := ⟨0, ![]⟩
abbrev S1600000x64 : Shape := ⟨2, ![1600000, 64]⟩
abbrev S50000x1 : Shape := ⟨2, ![50000, 1]⟩
abbrev S1x1 : Shape := ⟨2, ![1, 1]⟩

abbrev nBuf : Space → Nat
  | .hbm => 33
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x64, .f32⟩
  | .hbm, ⟨5, _⟩ => ⟨S64, .f32⟩
  | .hbm, ⟨6, _⟩ => ⟨S64x1, .f32⟩
  | .hbm, ⟨7, _⟩ => ⟨S1, .f32⟩
  | .hbm, ⟨8, _⟩ => ⟨S50000x64, .f32⟩
  | .hbm, ⟨9, _⟩ => ⟨S1x64, .f32⟩
  | .hbm, ⟨10, _⟩ => ⟨S50000x64, .f32⟩
  | .hbm, ⟨11, _⟩ => ⟨S50000x64, .f32⟩
  | .hbm, ⟨12, _⟩ => ⟨S50000x64, .f32⟩
  | .hbm, ⟨13, _⟩ => ⟨S1600000x1, .f32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x64, .f32⟩
  | .hbm, ⟨23, _⟩ => ⟨S1600000x64, .f32⟩
  | .hbm, ⟨24, _⟩ => ⟨S1600000x64, .f32⟩
  | .hbm, ⟨25, _⟩ => ⟨S_, .f32⟩
  | .hbm, ⟨26, _⟩ => ⟨S50000x64, .f32⟩
  | .hbm, ⟨27, _⟩ => ⟨S1600000x1, .i32⟩
  | .hbm, ⟨28, _⟩ => ⟨S50000x64, .f32⟩
  | .hbm, ⟨29, _⟩ => ⟨S50000x1, .f32⟩
  | .hbm, ⟨30, _⟩ => ⟨S1x1, .f32⟩
  | .hbm, ⟨31, _⟩ => ⟨S50000x1, .f32⟩
  | .hbm, ⟨32, _⟩ => ⟨S50000x1, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c : Ref sig .tc := ⟨.hbm, 14, rfl⟩
abbrev main_v6 : Ref sig .tc := ⟨.hbm, 15, rfl⟩
abbrev main_v7 : Ref sig .tc := ⟨.hbm, 16, rfl⟩
abbrev main_c_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S50000x64 : S_.BroadcastsInDim S50000x64 (![] : Fin 0 → Fin S50000x64.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  dot_S50000x128_S128x64_S50000x64_1_0_0_1_n_n_wf : DotDims.WF S50000x128 S128x64 S50000x64 [1] [0] [0] [1] [] []
  gather_S50000x64_S1600000x1_S1600000x64_1_0_n_n_0_1_164_wf : GatherDims.WF S50000x64 S1600000x1 S1600000x64 [1] [0] [] [0] [] 1 ![1, 64]
  scatter_S50000x64_S1600000x1_S1600000x64_1_0_0_1_wf : ScatterDims.WF S50000x64 S1600000x1 S1600000x64 [1] [0] [0] 1
  dot_S50000x64_S64x1_S50000x1_1_0_0_1_n_n_wf : DotDims.WF S50000x64 S64x1 S50000x1 [1] [0] [0] [1] [] []

variable [Facts₀]

def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def dot_S50000x64_S64x1_S50000x1_1_0_0_1_n_n : DotDims S50000x64 S64x1 S50000x1 where
  lhsContracting := [1]
  rhsContracting := [0]
  lhsNonContracting := [0]
  rhsNonContracting := [1]
  lhsBatch := []
  rhsBatch := []
  wf := dot_S50000x64_S64x1_S50000x1_1_0_0_1_n_n_wf

class Facts : Prop extends Facts₀ where

variable [Facts]
-- ==== Proof.LibPlainDot.lean ====
/-
  A plain matrix product — an [M, K] operand times a [K, N] operand, the left one contracted on its second axis
  and the right one on its first, no batch axis — read at the entry (r, c) over the extended reals: the sum over
  k of the left operand at (r, k) times the right operand at (k, c). Stated once for the on-chip product
  accumulated into a zero splat and once for the host's dot_general, for any dimension record that is the plain
  one, so that both sides of a comparison land on the same sum over `Fin K`.
-/
import Idealize.ShloMosaic.Lib.ValueIdx
import Idealize.ShloMosaic.PureOps.Ideal.Laws

noncomputable section

namespace Cert.PlainDot

open Idealize.ShloMosaic Idealize.ShloMosaic.ValueIdx

variable {M K N : ℕ}

/-- The contraction index of the plain product has one axis, of extent `K`. -/
theorem contr_rank : (DotDims.plain M K N).contr.rank = 1 := rfl
theorem contr_size : (DotDims.plain M K N).contr.size ⟨0, by rw [contr_rank]; exact Nat.one_pos⟩ = K := rfl

/-- The one-coordinate contraction index with coordinate `k`. -/
abbrev cidx (k : Fin K) : (DotDims.plain M K N).contr.Idx := (contrEquiv1 (DotDims.plain M K N) K contr_rank contr_size).symm k

/-- The left operand is read at row `r`, column `k`. -/
theorem lhsIdx_eq (r : Fin M) (c : Fin N) (k : Fin K) :
    (DotDims.plain M K N).lhsIdx (ix2 r c) (cidx k) = ix2 r k := by
  funext a
  apply Fin.ext
  match a with
  | ⟨0, _⟩ => rfl
  | ⟨1, _⟩ =>
    exact ((DotDims.plain M K N).lhsIdx_val_of_single rfl (ix2 r c) (cidx k)).trans
      (contrEquiv1_symm_val (DotDims.plain M K N) K contr_rank contr_size k)

/-- The right operand is read at row `k`, column `c`. -/
theorem rhsIdx_eq (r : Fin M) (c : Fin N) (k : Fin K) :
    (DotDims.plain M K N).rhsIdx (ix2 r c) (cidx k) = ix2 k c := by
  funext a
  apply Fin.ext
  match a with
  | ⟨0, _⟩ =>
    exact ((DotDims.plain M K N).rhsIdx_val_of_single rfl (ix2 r c) (cidx k)).trans
      (contrEquiv1_symm_val (DotDims.plain M K N) K contr_rank contr_size k)
  | ⟨1, _⟩ => rfl

/-- The contraction sum of the plain product, re-indexed over `Fin K`. -/
theorem sum_eq (l : (⟨2, ![M, K]⟩ : Shape).Idx → EReal) (r : (⟨2, ![K, N]⟩ : Shape).Idx → EReal) (p : Fin M) (c : Fin N) :
    (∑ q : (DotDims.plain M K N).contr.Idx, l ((DotDims.plain M K N).lhsIdx (ix2 p c) q) * r ((DotDims.plain M K N).rhsIdx (ix2 p c) q))
      = ∑ k : Fin K, l (ix2 p k) * r (ix2 k c) := by
  rw [← Equiv.sum_comp (contrEquiv1 (DotDims.plain M K N) K contr_rank contr_size).symm]
  refine Finset.sum_congr rfl fun k _ => ?_
  rw [lhsIdx_eq p c k, rhsIdx_eq p c k]

/-- The on-chip product accumulated into the zero splat, at entry `(p, c)`: the plain sum. -/
theorem matmul_zero_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (c : Fin N) :
    FloatOps.matmul d prec l r (constant (F := Ideal) ⟨2, ![M, N]⟩ .f32 0x00000000#32) (ix2 p c) = ∑ k : Fin K, l (ix2 p k) * r (ix2 k c) := by
  subst hd
  rw [Ideal.matmul_constant_zero_apply]
  exact sum_eq l r p c

/-- The host's dot_general at entry `(p, c)`: the same plain sum, whatever the precision and the schedule key. -/
theorem dotGeneral_apply {φ₁ φ₂ : FTy} (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂) (p : Fin M) (c : Fin N) :
    FloatOps.dotGeneral d prec sched l r (ix2 p c) = ∑ k : Fin K, l (ix2 p k) * r (ix2 k c) := by
  subst hd
  rw [Ideal.dotGeneral_apply]
  exact sum_eq l r p c

end Cert.PlainDot

end
-- ==== Proof.BlockScores.lean ====
/-
  What one grid point computes: the scores of its 5000 nodes.

  The body loads a block of 5000 feature rows `x0`, the weights `x1` (128 × 64), the bias `x2` (64) and the
  projection `x3` (64 × 1), and stores one column of 5000 numbers.  Over the extended reals a change of float
  format is the identity and a matrix product accumulated into zero is the plain sum of products, so the stored
  entry `(p, q)` is `∑ j, tanh (∑ k, x0 p k * x1 k j + x2 j) * x3 j q`: node `p`'s hidden row projected onto `x3`.
-/
import proofs.«160256_j77077483094916_1_alg».proof.Proof.Gen.KernelIdeal.Skeleton
import proofs.«160256_j77077483094916_1_alg».proof.Proof.LibPlainDot
import Idealize.ShloMosaic.Lib.ValueIdx
import Idealize.ShloMosaic.Lib.ValueLayout
import Idealize.ShloMosaic.Lib.Pipeline.Value

noncomputable section

namespace Cert.KernelIdeal.BlockScores

open Cert.KernelIdeal Cert.KernelIdeal.Gen Idealize.ShloMosaic Idealize.ShloMosaic.ValueIdx

/-- The bias row, cast to one row and broadcast over the block's 5000 rows, reads the bias at the column. -/
theorem bias_apply (x2 : Vec Ideal S64 .f32) (p : Fin 5000) (j : Fin 64) :
    broadcastTo S5000x64 (shapeCast S1x64 x2 Facts₀.shapeCasts_S64_S1x64) Facts₀.broadcasts_S1x64_S5000x64 (ix2 p j) = x2 (ix1 j) :=
  (broadcastTo_1b_ab_apply _ _ p j).trans (shapeCast_a_1a_apply x2 _ (0 : Fin 1) j)

/-- The body's one store at entry `(p, q)`. -/
theorem pay_apply (x0 : Vec Ideal S5000x128 .f32) (x1 : Vec Ideal S128x64 .f32) (x2 : Vec Ideal S64 .f32)
    (x3 : Vec Ideal S64x1 .f32) (p : Fin 5000) (q : Fin 1) :
    k0_pay1 (F := Ideal) x0 x1 x2 x3 (ix2 p q)
      = ∑ j : Fin 64, Ideal.tanh ((∑ k : Fin 128, x0 (ix2 p k) * x1 (ix2 k j)) + x2 (ix1 j)) * x3 (ix2 j q) := by
  unfold k0_pay1
  refine (Cert.PlainDot.matmul_zero_apply (M := 5000) (K := 64) (N := 1)
    dot_S5000x64_S64x1_S5000x1_1_0_0_1_n_n rfl none _ _ p q).trans ?_
  refine Finset.sum_congr rfl fun j _ => ?_
  refine congrArg₂ (· * ·) (congrArg Ideal.tanh (congrArg₂ (· + ·) ?_ ?_)) rfl
  · exact Cert.PlainDot.matmul_zero_apply (M := 5000) (K := 128) (N := 64)
      dot_S5000x128_S128x64_S5000x64_1_0_0_1_n_n rfl none _ _ p j
  · exact bias_apply x2 p j

end Cert.KernelIdeal.BlockScores

end
-- ==== Proof.LibRealLaw.lean ====
/-
  Extended reals that are real numbers, and the one law this certificate rests on.

  Both programs score a user against every point of interest by the inner product of the user's preference
  vector `u` (256 entries) with the point's region embedding `r`, scaled by `a`.  One program scales the
  preference vector first and then takes the inner product, `∑ k, (u k * a) * r k`; the other takes the inner
  product and scales the result, `a * ∑ k, u k * r k`.  On the extended reals a factor moves across a sum only
  when no term is infinite, so the law is stated for entries that are real numbers; it is then the ring identity
  `∑ k, (u k * a) * r k = a * ∑ k, u k * r k` in `ℝ`.

  The rest of the file says which operations keep an extended real a real number: products, sums over a finite
  index set, maxima, and the ideal quotient by a divisor that is at least one.
-/
import Idealize.ShloMosaic.PureOps.Ideal
import Idealize.ShloMosaic.PureOps.Ideal.Laws

noncomputable section

namespace Cert.Scores

open Idealize.ShloMosaic

/-- The extended real `x` is a real number (neither infinity). -/
def IsReal (x : EReal) : Prop := ∃ r : ℝ, x = (r : EReal)

theorem isReal_coe (r : ℝ) : IsReal (r : EReal) := ⟨r, rfl⟩

theorem isReal_zero : IsReal 0 := ⟨0, rfl⟩

theorem isReal_one : IsReal 1 := ⟨1, rfl⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

/-- The coercion of a finite sum of reals is the sum of the coercions. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.sum {ι : Type} (s : Finset ι) {f : ι → EReal} (h : ∀ i, IsReal (f i)) : IsReal (∑ i ∈ s, f i) := by
  choose g hg using h
  exact ⟨∑ i ∈ s, g i, by rw [coe_sum]; exact Finset.sum_congr rfl fun i _ => hg i⟩

/-- The maximum of a real number and one is a real number that is not zero. -/
theorem max_one_eq (s : ℝ) : max (s : EReal) 1 = ((max s 1 : ℝ) : EReal) := by
  have h := (EReal.coe_strictMono.monotone).map_max (a := s) (b := (1 : ℝ))
  rw [h]; rfl

/-- The ideal quotient of a real number by the maximum of a real number and one is a real number: the divisor is
    a real number at least one, so it is not zero and the quotient is the product with its reciprocal. -/
theorem IsReal.div_max_one {x s : EReal} (hx : IsReal x) (hs : IsReal s) : IsReal (Ideal.div x (max s 1)) := by
  obtain ⟨s', rfl⟩ := hs
  rw [max_one_eq, Ideal.div_coe (ne_of_gt (lt_of_lt_of_le one_pos (le_max_right s' 1)))]
  exact hx.mul (isReal_coe _)

/-- THE LAW.  For real entries, scaling the first factor of every product by `a` scales the inner product by `a`. -/
theorem scaled_inner {n : Nat} (u r : Fin n → EReal) (a : EReal)
    (hu : ∀ k, IsReal (u k)) (hr : ∀ k, IsReal (r k)) (ha : IsReal a) :
    ∑ k : Fin n, (u k * a) * r k = a * ∑ k : Fin n, u k * r k := by
  choose u' hu' using hu
  choose r' hr' using hr
  obtain ⟨a', rfl⟩ := ha
  have hl : ∀ k : Fin n, (u k * (a' : EReal)) * r k = ((u' k * a' * r' k : ℝ) : EReal) := fun k => by
    rw [hu' k, hr' k, EReal.coe_mul, EReal.coe_mul]
  have hr2 : ∀ k : Fin n, u k * r k = ((u' k * r' k : ℝ) : EReal) := fun k => by
    rw [hu' k, hr' k, EReal.coe_mul]
  rw [Finset.sum_congr rfl fun k _ => hl k, Finset.sum_congr rfl fun k _ => hr2 k, ← coe_sum, ← coe_sum,
    ← EReal.coe_mul, Finset.mul_sum]
  exact congrArg _ (Finset.sum_congr rfl fun k _ => by ring)

end Cert.Scores

end
-- ==== Proof.EdgeSums.lean ====
/-
  Projecting before or after collecting over edges.

  A node's output is a sum over the edges that end at it.  Each edge `e` carries a weight `v e` and points at a
  feature row `g e` (64 hidden activations); the final layer projects a row onto the weights `w`.  One program
  projects every row first and collects scalars, `∑ e, v e * (∑ j, g e j * w j)`; the other collects whole rows
  and projects the collected row, `∑ j, (∑ e, v e * g e j) * w j`.  The sums over edges are restricted to the
  edges that satisfy a predicate `P` (the edge ends at the node), written with an `if`.

  On the extended reals a factor moves across a sum only when no term is infinite, so the identity is stated for
  entries that are real numbers; there it is an exchange of two finite sums and the ring laws.
-/
import proofs.«160256_j77077483094916_1_alg».proof.Proof.LibRealLaw

noncomputable section

namespace Cert.EdgeSums

open Cert.Scores

/-- For real entries, projecting each edge's row and then collecting is collecting the rows and then projecting. -/
theorem project_collect {E J : Type} [Fintype E] [Fintype J] (P : E → Prop) [DecidablePred P]
    (v : E → EReal) (g : E → J → EReal) (w : J → EReal)
    (hv : ∀ e, IsReal (v e)) (hg : ∀ e j, IsReal (g e j)) (hw : ∀ j, IsReal (w j)) :
    (∑ e, if P e then v e * ∑ j, g e j * w j else 0)
      = ∑ j, (∑ e, if P e then v e * g e j else 0) * w j := by
  choose v' hv' using hv
  choose g' hg' using hg
  choose w' hw' using hw
  have hl : ∀ e, (if P e then v e * ∑ j, g e j * w j else 0)
      = (((if P e then v' e * ∑ j, g' e j * w' j else 0) : ℝ) : EReal) := by
    intro e
    by_cases h : P e
    · rw [if_pos h, if_pos h, hv' e, EReal.coe_mul, coe_sum]
      congr 1
      exact Finset.sum_congr rfl fun j _ => by rw [hg' e j, hw' j, EReal.coe_mul]
    · rw [if_neg h, if_neg h, EReal.coe_zero]
  have hr : ∀ j, (∑ e, if P e then v e * g e j else 0) * w j
      = ((((∑ e, if P e then v' e * g' e j else 0) * w' j) : ℝ) : EReal) := by
    intro j
    rw [EReal.coe_mul, coe_sum, hw' j]
    congr 1
    refine Finset.sum_congr rfl fun e _ => ?_
    by_cases h : P e
    · rw [if_pos h, if_pos h, hv' e, hg' e j, EReal.coe_mul]
    · rw [if_neg h, if_neg h, EReal.coe_zero]
  rw [Finset.sum_congr rfl fun e _ => hl e, Finset.sum_congr rfl fun j _ => hr j, ← coe_sum, ← coe_sum]
  congr 1
  simp_rw [Finset.sum_mul]
  rw [Finset.sum_comm]
  refine Finset.sum_congr rfl fun e _ => ?_
  by_cases h : P e
  · simp only [if_pos h]
    rw [Finset.mul_sum]
    exact Finset.sum_congr rfl fun j _ => by ring
  · simp only [if_neg h, zero_mul, Finset.sum_const_zero]

end Cert.EdgeSums

end
-- ==== Proof.LibEdgeIndex.lean ====
/-
  Gathers and accumulating scatters whose index array is a column [E, 1] of row numbers, read at an index.

  An index column `idx : [E, 1]` names one row per entry `e` (an edge).  Two readings of it occur:

  * a GATHER takes, for entry `e`, the row `idx[e, 0]` of a table with `N` rows — read signed and clamped into
    `[0, N - 1]` (`rowOf`).  From a vector `[N]` the result is `[E]`, its entry `e` the table at that row; from a
    matrix `[N, D]` the result is `[E, D]`, its entry `(e, j)` the table at that row and column `j`.
  * an ACCUMULATING SCATTER adds, for entry `e`, an update into row `idx[e, 0]` of the operand — read signed and
    NOT clamped: an update whose row is outside `[0, N - 1]` is dropped.  Entry `e` lands on row `n` exactly when
    `idx[e, 0] = n` as integers (`lands`).  Over the extended reals the result at row `n` is the operand there plus
    the sum over the entries that land on `n` of their updates; into a matrix `[N, D]` from updates `[E, D]` the
    update `(e, j')` lands on `(n, j)` exactly when `e` lands on `n` and `j' = j`, so column `j` of the result
    collects column `j` of the updates.

  Stated for any extents, over the dimension records with these dimension numbers; a printed record with the same
  numbers is such a record by unfolding.
-/
import Idealize.ShloMosaic.Lib.ValueIdx
import Idealize.ShloMosaic.PureOps.Ideal
import Idealize.ShloMosaic.PureOps.Ideal.Laws

noncomputable section

namespace Cert.EdgeIndex

open Idealize.ShloMosaic Idealize.ShloMosaic.ValueIdx

variable {α : Type} {N E D w : ℕ}

/-- A sum over a rank-1 index set is the sum over its coordinate. -/
def idxEquiv1 {n : ℕ} : (⟨1, ![n]⟩ : Shape).Idx ≃ Fin n where
  toFun i := i 0
  invFun a := ix1 a
  left_inv i := (eq_ix1 i).symm
  right_inv _ := rfl

theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

/-- The index column's entry for `e`. -/
abbrev at0 (e : Fin E) : (⟨2, ![E, 1]⟩ : Shape).Idx := ix2 e (0 : Fin 1)

/-- The row a gather reads for entry `e`: the column's word read signed, clamped into `[0, N - 1]`. -/
def rowOf (hN : 0 < N) (idx : IVec ⟨2, ![E, 1]⟩ w) (e : Fin E) : Fin N :=
  ⟨min (idx (at0 e)).toInt.toNat (N - 1), by omega⟩

/-- Entry `e` of the index column names row `n`, as integers, with no clamping. -/
def lands (idx : IVec ⟨2, ![E, 1]⟩ w) (e : Fin E) (n : Fin N) : Prop := (idx (at0 e)).toInt = (n.val : Int)

instance (idx : IVec ⟨2, ![E, 1]⟩ w) (e : Fin E) (n : Fin N) : Decidable (lands idx e n) := by
  unfold lands; infer_instance

/-! ## Gathers -/

/-- The dimension numbers of `vector[idx]`: one collapsed axis, the index vector on the column's second axis. -/
abbrev vecGather (N E : ℕ) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- `vector[idx]` at entry `e`: the vector at the clamped row. -/
theorem vecGather_apply (hN : 0 < N) (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGather N E wf) x idx (ix1 e) = x (ix1 (rowOf hN idx e)) := by
  unfold Host.gather
  congr 1
  funext a
  obtain rfl : a = 0 := Subsingleton.elim _ _
  refine Fin.ext ?_
  show (vecGather N E wf).start (ix1 e) idx 0 + (vecGather N E wf).batchCoord (ix1 e) 0 + (vecGather N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGather N E wf).startIndexMap from List.mem_singleton.mpr rfl)]
  have hsi : (vecGather N E wf).siIdx (ix1 e) ⟨List.idxOf (0 : Fin 1) (vecGather N E wf).startIndexMap,
      List.idxOf_lt_length_iff.2 (List.mem_singleton.mpr rfl)⟩ = at0 e := by
    funext b; refine Fin.ext ?_
    match b with
    | ⟨0, _⟩ => rfl
    | ⟨1, _⟩ => rfl
  rw [hsi]
  rfl

/-- The dimension numbers of `matrix[idx]` (whole rows): the row axis collapsed, the column axis an offset axis. -/
abbrev rowGather (N D E : ℕ) (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- `matrix[idx]` at entry `(e, j)`: the matrix at the clamped row, column `j`. -/
theorem rowGather_apply (hN : 0 < N) (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (j : Fin D) :
    Host.gather (rowGather N D E wf) x idx (ix2 e j) = x (ix2 (rowOf hN idx e) j) := by
  unfold Host.gather
  congr 1
  have h0 : ((rowGather N D E wf).operandIdx (ix2 e j) idx (0 : Fin 2)).val = (rowOf hN idx e).val := by
    show (rowGather N D E wf).start (ix2 e j) idx (0 : Fin 2) + (rowGather N D E wf).batchCoord (ix2 e j) (0 : Fin 2)
      + (rowGather N D E wf).offCoord (ix2 e j) (0 : Fin 2) = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N D E wf).startIndexMap from List.mem_singleton.mpr rfl)]
    have hsi : (rowGather N D E wf).siIdx (ix2 e j) ⟨List.idxOf (0 : Fin 2) (rowGather N D E wf).startIndexMap,
        List.idxOf_lt_length_iff.2 (List.mem_singleton.mpr rfl)⟩ = at0 e := by
      funext b; refine Fin.ext ?_
      match b with
      | ⟨0, _⟩ => rfl
      | ⟨1, _⟩ => rfl
    rw [hsi]
    rfl
  have h1 : ((rowGather N D E wf).operandIdx (ix2 e j) idx (1 : Fin 2)).val = j.val := by
    show (rowGather N D E wf).start (ix2 e j) idx (1 : Fin 2) + (rowGather N D E wf).batchCoord (ix2 e j) (1 : Fin 2)
      + (rowGather N D E wf).offCoord (ix2 e j) (1 : Fin 2) = _
    rw [GatherDims.batchCoord_eq_zero _ _ _ List.not_mem_nil]
    have hs : (rowGather N D E wf).start (ix2 e j) idx (1 : Fin 2) = 0 := by
      unfold GatherDims.start
      split
      · rename_i h
        exact ((by decide : ¬ (1 : Fin 2) ∈ ([0] : List (Fin 2))) h).elim
      · rfl
    have ho : (rowGather N D E wf).offCoord (ix2 e j) (1 : Fin 2) = j.val := by
      unfold GatherDims.offCoord
      split
      · rfl
      · rename_i h
        exact absurd ((GatherDims.mem_sKept _ _).mpr
          ⟨fun hh => absurd (hh : (1 : Fin 2) ∈ ([0] : List (Fin 2))) (by decide), List.not_mem_nil⟩) h
    rw [hs, ho, Nat.add_zero, Nat.zero_add]
  funext a
  refine Fin.ext ?_
  match a with
  | ⟨0, _⟩ => exact h0
  | ⟨1, _⟩ => exact h1

/-! ## Accumulating scatters -/

/-- An update lands on the operand index `i` exactly when, on every axis, its start plus its window coordinate is
    `i`'s coordinate. -/
theorem resultIdx?_eq_some_iff {s si u : Shape} (d : ScatterDims s si u) (j : u.Idx) (idx : IVec si w) (i : s.Idx) :
    d.resultIdx? j idx = some i ↔ ∀ a, d.start j idx a + (d.window j a : Int) = ((i a).val : Int) := by
  unfold ScatterDims.resultIdx?
  constructor
  · intro h
    split at h
    · rename_i hb
      have hf := Option.some.inj h
      intro a
      have ha := congrArg (fun f => ((f a).val : Int)) hf
      have hb' := (hb a).1
      simp only [Int.toNat_of_nonneg hb'] at ha
      exact ha
    · cases h
  · intro h
    have hb : ∀ a, 0 ≤ d.start j idx a + (d.window j a : Int) ∧ d.start j idx a + (d.window j a : Int) < s.size a := fun a => by
      rw [h a]
      exact ⟨Int.natCast_nonneg _, by exact_mod_cast (i a).isLt⟩
    rw [dif_pos hb]
    congr 1
    funext a
    apply Fin.ext
    show (d.start j idx a + (d.window j a : Int)).toNat = (i a).val
    rw [h a, Int.toNat_natCast]

/-- An operand axis carries a window coordinate exactly when it is not an inserted axis. -/
theorem mem_sKept_iff {s si u : Shape} (d : ScatterDims s si u) (a : Fin s.rank) : a ∈ d.sKept ↔ a ∉ d.insertedWindowDims := by
  simp [ScatterDims.sKept, Shape.kept, List.mem_filter, List.mem_finRange]

/-- The dimension numbers of `vector.at[idx].add(updates)`. -/
abbrev vecScatter (N E : ℕ) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

theorem vecScatter_lands (wf : ScatterDims.WF ⟨1, ![N]⟩ ⟨2, ![E, 1]⟩ ⟨1, ![E]⟩ [] [0] [0] 1)
    (idx : IVec ⟨2, ![E, 1]⟩ w) (e : Fin E) (n : Fin N) :
    (vecScatter N E wf).resultIdx? (ix1 e) idx = some (ix1 n) ↔ lands idx e n := by
  rw [resultIdx?_eq_some_iff]
  have hstart : (vecScatter N E wf).start (ix1 e) idx (0 : Fin 1) = (idx (at0 e)).toInt := by
    unfold ScatterDims.start
    rw [dif_pos (show (0 : Fin 1) ∈ (vecScatter N E wf).scatterDimsToOperandDims from List.mem_singleton.mpr rfl)]
    congr 2
    funext b; refine Fin.ext ?_
    match b with
    | ⟨0, _⟩ => rfl
    | ⟨1, _⟩ => rfl
  have hwin : (vecScatter N E wf).window (ix1 e) (0 : Fin 1) = 0 := by
    unfold ScatterDims.window
    split
    · rename_i h
      exact absurd (List.mem_singleton.mpr rfl) ((mem_sKept_iff _ _).mp h)
    · rfl
  constructor
  · intro h
    have h0 : (idx (at0 e)).toInt + ((0 : ℕ) : Int) = (n.val : Int) := by
      have := h (0 : Fin 1)
      rw [hstart, hwin] at this
      exact this
    show (idx (at0 e)).toInt = (n.val : Int)
    rw [Nat.cast_zero, add_zero] at h0
    exact h0
  · intro h a
    obtain rfl : a = 0 := Subsingleton.elim _ _
    rw [hstart, hwin]
    show (idx (at0 e)).toInt + ((0 : ℕ) : Int) = (n.val : Int)
    rw [Nat.cast_zero, add_zero]
    exact h

/-- `vector.at[idx].add(updates)` at row `n`, over the extended reals: the operand there plus the updates of the
    entries that land on `n`. -/
theorem vecScatterAdd_apply (wf : ScatterDims.WF ⟨1, ![N]⟩ ⟨2, ![E, 1]⟩ ⟨1, ![E]⟩ [] [0] [0] 1)
    (x : FVec Ideal ⟨1, ![N]⟩ .f32) (idx : IVec ⟨2, ![E, 1]⟩ w) (upd : FVec Ideal ⟨1, ![E]⟩ .f32) (n : Fin N) :
    Host.scatterAdd (F := Ideal) (vecScatter N E wf) x idx upd (ix1 n)
      = x (ix1 n) + ∑ e : Fin E, if lands idx e n then upd (ix1 e) else 0 := by
  show Ideal.hostScatterAdd (vecScatter N E wf) x idx upd (ix1 n) = _
  unfold Ideal.hostScatterAdd
  congr 1
  rw [Finset.sum_filter, sum_idx1]
  exact Finset.sum_congr rfl fun e _ => if_congr (vecScatter_lands wf idx e n) rfl rfl

/-- The dimension numbers of `matrix.at[idx].add(updates)` with whole-row updates. -/
abbrev rowScatter (N D E : ℕ) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

theorem rowScatter_lands (wf : ScatterDims.WF ⟨2, ![N, D]⟩ ⟨2, ![E, 1]⟩ ⟨2, ![E, D]⟩ [1] [0] [0] 1)
    (idx : IVec ⟨2, ![E, 1]⟩ w) (e : Fin E) (j' : Fin D) (n : Fin N) (j : Fin D) :
    (rowScatter N D E wf).resultIdx? (ix2 e j') idx = some (ix2 n j) ↔ lands idx e n ∧ j' = j := by
  rw [resultIdx?_eq_some_iff]
  have hstart0 : (rowScatter N D E wf).start (ix2 e j') idx (0 : Fin 2) = (idx (at0 e)).toInt := by
    unfold ScatterDims.start
    rw [dif_pos (show (0 : Fin 2) ∈ (rowScatter N D E wf).scatterDimsToOperandDims from List.mem_singleton.mpr rfl)]
    congr 2
    funext b; refine Fin.ext ?_
    match b with
    | ⟨0, _⟩ => rfl
    | ⟨1, _⟩ => rfl
  have hwin0 : (rowScatter N D E wf).window (ix2 e j') (0 : Fin 2) = 0 := by
    unfold ScatterDims.window
    split
    · rename_i h
      exact absurd (List.mem_singleton.mpr rfl) ((mem_sKept_iff _ _).mp h)
    · rfl
  have hstart1 : (rowScatter N D E wf).start (ix2 e j') idx (1 : Fin 2) = 0 := by
    unfold ScatterDims.start
    split
    · rename_i h
      exact ((by decide : ¬ (1 : Fin 2) ∈ ([0] : List (Fin 2))) h).elim
    · rfl
  have hwin1 : (rowScatter N D E wf).window (ix2 e j') (1 : Fin 2) = j'.val := by
    unfold ScatterDims.window
    split
    · rfl
    · rename_i h
      exact absurd ((mem_sKept_iff _ _).mpr
        (fun hh => absurd (hh : (1 : Fin 2) ∈ ([0] : List (Fin 2))) (by decide))) h
  constructor
  · intro h
    have h0 : (idx (at0 e)).toInt + ((0 : ℕ) : Int) = (n.val : Int) := by
      have := h (0 : Fin 2)
      rw [hstart0, hwin0] at this
      exact this
    have h1 : (0 : Int) + ((j'.val : ℕ) : Int) = (j.val : Int) := by
      have := h (1 : Fin 2)
      rw [hstart1, hwin1] at this
      exact this
    rw [Nat.cast_zero, add_zero] at h0
    rw [zero_add] at h1
    exact ⟨h0, Fin.ext (by exact_mod_cast h1)⟩
  · rintro ⟨h, rfl⟩ a
    match a with
    | ⟨0, _⟩ =>
      show (rowScatter N D E wf).start (ix2 e j') idx (0 : Fin 2) + (((rowScatter N D E wf).window (ix2 e j') (0 : Fin 2) : ℕ) : Int) = (n.val : Int)
      rw [hstart0, hwin0, Nat.cast_zero, add_zero]
      exact h
    | ⟨1, _⟩ =>
      show (rowScatter N D E wf).start (ix2 e j') idx (1 : Fin 2) + (((rowScatter N D E wf).window (ix2 e j') (1 : Fin 2) : ℕ) : Int) = (j'.val : Int)
      rw [hstart1, hwin1, zero_add]

/-- `matrix.at[idx].add(updates)` at `(n, j)`, over the extended reals: the operand there plus column `j` of the
    updates of the entries that land on row `n`. -/
theorem rowScatterAdd_apply (wf : ScatterDims.WF ⟨2, ![N, D]⟩ ⟨2, ![E, 1]⟩ ⟨2, ![E, D]⟩ [1] [0] [0] 1)
    (x : FVec Ideal ⟨2, ![N, D]⟩ .f32) (idx : IVec ⟨2, ![E, 1]⟩ w) (upd : FVec Ideal ⟨2, ![E, D]⟩ .f32) (n : Fin N) (j : Fin D) :
    Host.scatterAdd (F := Ideal) (rowScatter N D E wf) x idx upd (ix2 n j)
      = x (ix2 n j) + ∑ e : Fin E, if lands idx e n then upd (ix2 e j) else 0 := by
  show Ideal.hostScatterAdd (rowScatter N D E wf) x idx upd (ix2 n j) = _
  unfold Ideal.hostScatterAdd
  congr 1
  rw [Finset.sum_filter, sum_idx2]
  refine Finset.sum_congr rfl fun e _ => ?_
  rw [Finset.sum_congr rfl fun j' _ => if_congr (rowScatter_lands wf idx e j' n j) rfl rfl]
  by_cases h : lands idx e n
  · simp only [h, true_and, if_true]
    rw [Finset.sum_ite_eq' Finset.univ j (fun j' => upd (ix2 e j'))]
    simp
  · simp only [h, false_and, if_false, Finset.sum_const_zero]

end Cert.EdgeIndex

end
-- ==== Proof.NodeOutputs.lean ====
/-
  The node outputs of one graph-convolution layer, and the two arrangements of its last projection.

  A node `r` has 128 input features `x r`; its 64 hidden activations are `h r j = tanh (∑ k, x r k * W1 k j + b1 j)`.
  An edge `e` carries a weight `val e`, a source named by the index column `ci` (gathered, so read signed and
  clamped: `rowOf ci e`) and a target named by the index column `ri` (scattered, so read signed and unclamped:
  edge `e` ends at node `n` when `lands ri e n`).  The layer's output at node `n` is

      out n = (∑ over the edges e that end at n of val e * (the source's hidden row projected onto W2)) + b2 .

  `nodeOut` projects first: every node's hidden row is reduced to its score `∑ j, h r j * W2 j`, and the edges
  collect scalars.  `nodeOutRows` collects first: the edges collect the 64 weighted activations of their sources
  into a row per node, and each collected row is projected onto `W2`.  For real inputs the two are equal
  (`nodeOutRows_eq`): the hidden activations are hyperbolic tangents of real numbers, hence real, and the exchange
  of the two finite sums is `EdgeSums.project_collect`.  The bias `b2` is added last on both sides and may be
  any extended real.
-/
import proofs.«160256_j77077483094916_1_alg».proof.Proof.EdgeSums
import proofs.«160256_j77077483094916_1_alg».proof.Proof.LibEdgeIndex
import Idealize.ShloMosaic.Lib.ValueIdx
import Idealize.ShloMosaic.PureOps.Ideal

noncomputable section

namespace Cert.NodeOutputs

open Idealize.ShloMosaic Idealize.ShloMosaic.ValueIdx Cert.EdgeIndex Cert.Scores

/-- Hidden activation `j` of node `r`. -/
def hidden (x : (⟨2, ![50000, 128]⟩ : Shape).Idx → EReal) (W1 : (⟨2, ![128, 64]⟩ : Shape).Idx → EReal)
    (b1 : (⟨1, ![64]⟩ : Shape).Idx → EReal) (r : Fin 50000) (j : Fin 64) : EReal :=
  Ideal.tanh ((∑ k : Fin 128, x (ix2 r k) * W1 (ix2 k j)) + b1 (ix1 j))

/-- The score of node `r`: its hidden row projected onto `W2`. -/
def score (x : (⟨2, ![50000, 128]⟩ : Shape).Idx → EReal) (W1 : (⟨2, ![128, 64]⟩ : Shape).Idx → EReal)
    (b1 : (⟨1, ![64]⟩ : Shape).Idx → EReal) (W2 : (⟨2, ![64, 1]⟩ : Shape).Idx → EReal) (r : Fin 50000) : EReal :=
  ∑ j : Fin 64, hidden x W1 b1 r j * W2 (ix2 j (0 : Fin 1))

/-- The sum over the edges that end at node `n` of the edge's weight times its source's score, from zero. -/
def collected (x : (⟨2, ![50000, 128]⟩ : Shape).Idx → EReal) (ri ci : IVec ⟨2, ![1600000, 1]⟩ 32)
    (val : (⟨1, ![1600000]⟩ : Shape).Idx → EReal) (W1 : (⟨2, ![128, 64]⟩ : Shape).Idx → EReal)
    (b1 : (⟨1, ![64]⟩ : Shape).Idx → EReal) (W2 : (⟨2, ![64, 1]⟩ : Shape).Idx → EReal) (n : Fin 50000) : EReal :=
  0 + ∑ e : Fin 1600000, if lands ri e n then val (ix1 e) * score x W1 b1 W2 (rowOf (by decide) ci e) else 0

/-- THE LAYER'S OUTPUT, projecting before collecting. -/
def nodeOut (x : (⟨2, ![50000, 128]⟩ : Shape).Idx → EReal) (ri ci : IVec ⟨2, ![1600000, 1]⟩ 32)
    (val : (⟨1, ![1600000]⟩ : Shape).Idx → EReal) (W1 : (⟨2, ![128, 64]⟩ : Shape).Idx → EReal)
    (b1 : (⟨1, ![64]⟩ : Shape).Idx → EReal) (W2 : (⟨2, ![64, 1]⟩ : Shape).Idx → EReal)
    (b2 : (⟨1, ![1]⟩ : Shape).Idx → EReal) : (⟨2, ![50000, 1]⟩ : Shape).Idx → EReal :=
  fun i => collected x ri ci val W1 b1 W2 (i 0) + b2 (ix1 (0 : Fin 1))

/-- Column `j` of the row the edges collect at node `n`: the sum over the edges that end at `n` of the edge's
    weight times activation `j` of its source, from zero. -/
def collectedRow (x : (⟨2, ![50000, 128]⟩ : Shape).Idx → EReal) (ri ci : IVec ⟨2, ![1600000, 1]⟩ 32)
    (val : (⟨1, ![1600000]⟩ : Shape).Idx → EReal) (W1 : (⟨2, ![128, 64]⟩ : Shape).Idx → EReal)
    (b1 : (⟨1, ![64]⟩ : Shape).Idx → EReal) (n : Fin 50000) (j : Fin 64) : EReal :=
  0 + ∑ e : Fin 1600000, if lands ri e n then val (ix1 e) * hidden x W1 b1 (rowOf (by decide) ci e) j else 0

/-- The layer's output, collecting rows before projecting. -/
def nodeOutRows (x : (⟨2, ![50000, 128]⟩ : Shape).Idx → EReal) (ri ci : IVec ⟨2, ![1600000, 1]⟩ 32)
    (val : (⟨1, ![1600000]⟩ : Shape).Idx → EReal) (W1 : (⟨2, ![128, 64]⟩ : Shape).Idx → EReal)
    (b1 : (⟨1, ![64]⟩ : Shape).Idx → EReal) (W2 : (⟨2, ![64, 1]⟩ : Shape).Idx → EReal)
    (b2 : (⟨1, ![1]⟩ : Shape).Idx → EReal) : (⟨2, ![50000, 1]⟩ : Shape).Idx → EReal :=
  fun i => (∑ j : Fin 64, collectedRow x ri ci val W1 b1 (i 0) j * W2 (ix2 j (0 : Fin 1))) + b2 (ix1 (0 : Fin 1))

/-- The float inputs whose finiteness the exchange of sums uses are arrays of real numbers. -/
structure RealInputs (x : (⟨2, ![50000, 128]⟩ : Shape).Idx → EReal) (val : (⟨1, ![1600000]⟩ : Shape).Idx → EReal)
    (W1 : (⟨2, ![128, 64]⟩ : Shape).Idx → EReal) (b1 : (⟨1, ![64]⟩ : Shape).Idx → EReal)
    (W2 : (⟨2, ![64, 1]⟩ : Shape).Idx → EReal) : Prop where
  x : ∀ i, IsReal (x i)
  val : ∀ i, IsReal (val i)
  W1 : ∀ i, IsReal (W1 i)
  b1 : ∀ i, IsReal (b1 i)
  W2 : ∀ i, IsReal (W2 i)

/-- A hidden activation of real inputs is a real number: the hyperbolic tangent of a real number. -/
theorem isReal_hidden {x : (⟨2, ![50000, 128]⟩ : Shape).Idx → EReal} {W1 : (⟨2, ![128, 64]⟩ : Shape).Idx → EReal}
    {b1 : (⟨1, ![64]⟩ : Shape).Idx → EReal} (hx : ∀ i, IsReal (x i)) (hW1 : ∀ i, IsReal (W1 i)) (hb1 : ∀ i, IsReal (b1 i))
    (r : Fin 50000) (j : Fin 64) : IsReal (hidden x W1 b1 r j) := by
  obtain ⟨a, ha⟩ := (IsReal.sum Finset.univ (f := fun k : Fin 128 => x (ix2 r k) * W1 (ix2 k j))
    (fun k => (hx _).mul (hW1 _))).add (hb1 (ix1 j))
  unfold hidden
  rw [ha]
  exact ⟨Real.tanh a, rfl⟩

/-- For real inputs, collecting rows and then projecting is projecting and then collecting. -/
theorem nodeOutRows_eq {x : (⟨2, ![50000, 128]⟩ : Shape).Idx → EReal} {val : (⟨1, ![1600000]⟩ : Shape).Idx → EReal}
    {W1 : (⟨2, ![128, 64]⟩ : Shape).Idx → EReal} {b1 : (⟨1, ![64]⟩ : Shape).Idx → EReal}
    {W2 : (⟨2, ![64, 1]⟩ : Shape).Idx → EReal} (h : RealInputs x val W1 b1 W2) (ri ci : IVec ⟨2, ![1600000, 1]⟩ 32)
    (b2 : (⟨1, ![1]⟩ : Shape).Idx → EReal) :
    nodeOutRows x ri ci val W1 b1 W2 b2 = nodeOut x ri ci val W1 b1 W2 b2 := by
  funext i
  unfold nodeOutRows nodeOut
  refine congrArg (· + b2 (ix1 (0 : Fin 1))) ?_
  unfold collected
  simp only [collectedRow, score, zero_add]
  exact (EdgeSums.project_collect (P := fun e : Fin 1600000 => lands ri e (i 0)) (v := fun e => val (ix1 e))
    (g := fun e j => hidden x W1 b1 (rowOf (by decide) ci e) j) (w := fun j => W2 (ix2 j (0 : Fin 1)))
    (fun e => h.val _) (fun e j => isReal_hidden h.x h.W1 h.b1 _ j) (fun j => h.W2 _)).symm

end Cert.NodeOutputs

end
-- ==== Proof.ScoreColumn.lean ====
/-
  The array the kernel's region leaves: every node's score, as one column.

  The grid has 10 points; point `t` loads feature rows `5000 t … 5000 t + 4999` and the whole of the weights, the
  bias and the projection, and writes back rows `5000 t … 5000 t + 4999` of the output column.  By `BlockScores`
  the entry it writes for its row `p` is the score of node `5000 t + p`.  The ten blocks tile the 50000 rows (row `r`
  is in the block of point `r / 5000`), so after the region the output array holds `score r` at row `r`: `scoreCol`.
  The steps from one point's block to the whole array follow the library's cover lemma for pipelined outputs.
-/
import proofs.«160256_j77077483094916_1_alg».proof.Proof.Gen.KernelIdeal.Frame
import proofs.«160256_j77077483094916_1_alg».proof.Proof.BlockScores
import proofs.«160256_j77077483094916_1_alg».proof.Proof.NodeOutputs
import Idealize.ShloMosaic.Lib.Pipeline.Value

set_option maxRecDepth 16384

noncomputable section

namespace Cert.KernelIdeal.ScoreColumn

open Cert.KernelIdeal Cert.KernelIdeal.Gen Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ)

theorem hz2 : (![0, 0] : Fin 2 → Nat) = fun _ => 0 := funext fun a => by fin_cases a <;> rfl
theorem hz1 : (![0] : Fin 1 → Nat) = fun _ => 0 := funext fun a => by fin_cases a <;> rfl

/-- The column of scores: row `r` holds node `r`'s hidden row projected onto `W2`. -/
def scoreCol (X : S50000x128.Idx → EReal) (W1 : S128x64.Idx → EReal) (b1 : S64.Idx → EReal) (W2 : S64x1.Idx → EReal) :
    S50000x1.Idx → EReal :=
  fun i => NodeOutputs.score X W1 b1 W2 (i 0)

/-- One point's stored block against the column: if the loaded feature block is rows `5000 t + p` of `X` and the
    other loads are the whole of `W1`, `b1`, `W2`, the entry stored at block row `y 0` is the column's entry at any
    index `i` of row `5000 t + y 0`. -/
theorem point_scores (x0 : Vec Ideal S5000x128 .f32) (x1 : Vec Ideal S128x64 .f32) (x2 : Vec Ideal S64 .f32)
    (x3 : Vec Ideal S64x1 .f32) (X : S50000x128.Idx → EReal) (W1 : S128x64.Idx → EReal) (b1 : S64.Idx → EReal)
    (W2 : S64x1.Idx → EReal) (t : ℕ)
    (h0 : ∀ (p : Fin 5000) (k : Fin 128) (r : Fin 50000), r.val = t * 5000 + p.val → x0 (ix2 p k) = X (ix2 r k))
    (h1 : ∀ (k : Fin 128) (j : Fin 64), x1 (ix2 k j) = W1 (ix2 k j))
    (h2 : ∀ j : Fin 64, x2 (ix1 j) = b1 (ix1 j))
    (h3 : ∀ j : Fin 64, x3 (ix2 j (0 : Fin 1)) = W2 (ix2 j (0 : Fin 1)))
    (y : S5000x1.Idx) (i : S50000x1.Idx) (hi : (i 0).val = t * 5000 + (y 0).val) :
    k0_pay1 (F := Ideal) x0 x1 x2 x3 y = scoreCol X W1 b1 W2 i := by
  obtain ⟨p, q, rfl⟩ : ∃ (p : Fin 5000) (q : Fin 1), y = ix2 p q := ⟨y 0, y 1, eq_ix2 y⟩
  obtain rfl : q = 0 := Subsingleton.elim _ _
  rw [BlockScores.pay_apply]
  unfold scoreCol NodeOutputs.score NodeOutputs.hidden
  refine Finset.sum_congr rfl fun j _ => ?_
  rw [h3 j, h2 j]
  refine congrArg₂ (· * ·) (congrArg Ideal.tanh (congrArg₂ (· + ·) (Finset.sum_congr rfl fun k _ => ?_) rfl)) rfl
  rw [h0 p k (i 0) hi, h1 k j]

/-- The printed index maps over the grid: the feature window and the output window move with the point, the
    weights, the bias and the projection stay at their one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- WHAT POINT `t` WRITES BACK is block `t` of the score column of the arrays as the region finds them. -/
theorem flushed_eq (c : Dev nD) (t : Fin cfg0.N) :
    (dats m 0 c).flushed 4 t = ((cfg0.win 4).blk t).view.read (Elt Ideal)
      (scoreCol (V m c main_arg0) (V m c main_arg4) (V m c main_arg5) (V m c main_arg6)) := by
  show (cfg0.win 4).cut (grid0.coords t) ((dats m 0 c).after 4 t) = _
  rw [after0_4]
  unfold out0_4
  rw [View.canon_unit_zero hz2]
  simp only [View.ld_unit_zero (S := S5000x128) hz2, View.ld_unit_zero (S := S128x64) hz2,
    View.ld_unit_zero (S := S64) hz1, View.ld_unit_zero (S := S64x1) hz2]
  obtain ⟨e00, e01, e10, e11, e20, e30, e31, e40, e41⟩ := idx_facts t
  funext y
  show k0_pay1 (F := Ideal) (iblk m c 0 t) (iblk m c 1 t) (iblk m c 2 t) (iblk m c 3 t) y
    = scoreCol (V m c main_arg0) (V m c main_arg4) (V m c main_arg5) (V m c main_arg6) (((cfg0.win 4).blk t).view.emb y)
  refine point_scores (iblk m c 0 t) (iblk m c 1 t) (iblk m c 2 t) (iblk m c 3 t)
    (V m c main_arg0) (V m c main_arg4) (V m c main_arg5) (V m c main_arg6) t.val ?_ ?_ ?_ ?_ y
    (((cfg0.win 4).blk t).view.emb y) ?_
  · intro p k r hr
    show V m c main_arg0 (((cfg0.win 0).blk t).view.emb (ix2 p k)) = V m c main_arg0 (ix2 r k)
    refine congrArg _ (funext fun a => Fin.ext ?_)
    match a with
    | ⟨0, _⟩ => show win0_0.index t (0 : Fin 2) * 5000 + 1 * p.val = r.val; omega
    | ⟨1, _⟩ => show win0_0.index t (1 : Fin 2) * 128 + 1 * k.val = k.val; omega
  · intro k j
    show V m c main_arg4 (((cfg0.win 1).blk t).view.emb (ix2 k j)) = V m c main_arg4 (ix2 k j)
    refine congrArg _ (funext fun a => Fin.ext ?_)
    match a with
    | ⟨0, _⟩ => show win0_1.index t (0 : Fin 2) * 128 + 1 * k.val = k.val; omega
    | ⟨1, _⟩ => show win0_1.index t (1 : Fin 2) * 64 + 1 * j.val = j.val; omega
  · intro j
    show V m c main_arg5 (((cfg0.win 2).blk t).view.emb (ix1 j)) = V m c main_arg5 (ix1 j)
    refine congrArg _ (funext fun a => Fin.ext ?_)
    match a with
    | ⟨0, _⟩ => show win0_2.index t (0 : Fin 1) * 64 + 1 * j.val = j.val; omega
  · intro j
    show V m c main_arg6 (((cfg0.win 3).blk t).view.emb (ix2 j (0 : Fin 1))) = V m c main_arg6 (ix2 j (0 : Fin 1))
    refine congrArg _ (funext fun a => Fin.ext ?_)
    match a with
    | ⟨0, _⟩ => show win0_3.index t (0 : Fin 2) * 64 + 1 * j.val = j.val; omega
    | ⟨1, _⟩ => show win0_3.index t (1 : Fin 2) * 1 + 1 * 0 = 0; omega
  · show win0_4.index t (0 : Fin 2) * 5000 + 1 * (y 0).val = t.val * 5000 + (y 0).val
    omega

/-- An index of the output array is in point `t`'s block iff each coordinate is in the block's range on its axis. -/
theorem mem_blk (t : Fin cfg0.N) (i : S50000x1.Idx) :
    i ∈ ((cfg0.win 4).blk t).view.set ↔ ∀ a : Fin 2, win0_4.index t a * S5000x1.size a ≤ (i a).val
      ∧ (i a).val < win0_4.index t a * S5000x1.size a + S5000x1.size a := by
  show i ∈ ((View.whole main_v0).slice (win0_4.rect t)).set ↔ _
  rw [View.set_slice_whole, Rect.mem_set_unit]
  exact Iff.rfl

/-- Row `r` is in the block of point `r / 5000`. -/
theorem covered (i : S50000x1.Idx) : ∃ t : Fin cfg0.N, (cfg0.win 4).flush t = true ∧ i ∈ ((cfg0.win 4).blk t).view.set := by
  have hN : cfg0.N = 10 := N_0
  have hi0 : (i 0).val < 50000 := (i 0).isLt
  have hi1 : (i 1).val < 1 := (i 1).isLt
  let t : Fin cfg0.N := ⟨(i 0).val / 5000, by rw [hN]; omega⟩
  have ht : t.val = (i 0).val / 5000 := rfl
  obtain ⟨e00, e01, e10, e11, e20, e30, e31, e40, e41⟩ := idx_facts t
  refine ⟨t, flush0_4 t, ?_⟩
  rw [mem_blk]
  intro a
  match a with
  | ⟨0, _⟩ =>
    show win0_4.index t (0 : Fin 2) * 5000 ≤ (i 0).val ∧ (i 0).val < win0_4.index t (0 : Fin 2) * 5000 + 5000
    omega
  | ⟨1, _⟩ =>
    show win0_4.index t (1 : Fin 2) * 1 ≤ (i 1).val ∧ (i 1).val < win0_4.index t (1 : Fin 2) * 1 + 1
    omega

/-- THE OUTPUT ARRAY after the region: the score column of the arrays as the region finds them. -/
theorem final (c : Dev nD) : (dats m 0 c).arrAt 4 cfg0.N
    = scoreCol (V m c main_arg0) (V m c main_arg4) (V m c main_arg5) (V m c main_arg6) :=
  (dats m 0 c).arrAt_eq_of_cover 4 _ (fun t _ => flushed_eq m c t) covered

end Cert.KernelIdeal.ScoreColumn

end
-- ==== Proof.HostTail.lean ====
/-
  What the kernel's program does with the score column after the region.

  The host operations after the region flatten the score column to a vector, wrap the negative source indices
  (adding 50000) and lay both index vectors out as columns [1600000, 1], gather each edge's source score, multiply by
  the edge's weight, add the products into a zero vector at the edges' targets, and add the last bias.  `tail` is
  that composition as one function of the score column; read at node `n` it is the sum over the edges that end at
  `n` of the edge's weight times the score of its (clamped) source, from zero, plus the bias (`tail_apply`).  With
  a score column `scoreCol` this is `NodeOutputs.nodeOut` (`tail_scoreCol`).
-/
import proofs.«160256_j77077483094916_1_alg».proof.Proof.ScoreColumn
import proofs.«160256_j77077483094916_1_alg».proof.Proof.LibEdgeIndex
import Idealize.ShloMosaic.Lib.StableHlo.Run
import Idealize.ShloMosaic.Lib.Pipeline.FrameSuffix
import Idealize.ShloMosaic.Lib.Pipeline.Value

set_option maxRecDepth 16384

noncomputable section

namespace Cert.KernelIdeal.HostTail

open Cert.KernelIdeal Cert.KernelIdeal.Gen Idealize.ShloMosaic Idealize.ShloMosaic.TcCoe Idealize.ShloMosaic.ValueIdx
open Idealize.SL.Sem Idealize.ShloMosaic.StableHlo Cert.EdgeIndex Cert.NodeOutputs Cert.KernelIdeal.ScoreColumn

/-- The target indices as a column. -/
def rowIdx (x1 : IVec S1600000 32) : IVec S1600000x1 32 :=
  broadcastInDim S1600000x1 ![0] Facts₀.bcast_S1600000_S1600000x1_0 x1

/-- The source indices, the negative ones wrapped by adding 50000, as a column. -/
def colIdx (x2 : IVec S1600000 32) : IVec S1600000x1 32 :=
  broadcastInDim S1600000x1 ![0] Facts₀.bcast_S1600000_S1600000x1_0
    (select (cmpi .slt x2 (broadcastInDim S1600000 ![] Facts₀.bcast_S_S1600000 (constantI S_ 32 0#32)))
      (addi x2 (broadcastInDim S1600000 ![] Facts₀.bcast_S_S1600000 (constantI S_ 32 50000#32))) x2)

/-- The host operations after the region, as one function of the score column `S`. -/
def tail (S : S50000x1.Idx → EReal) (x1 x2 : IVec S1600000 32) (x3 : S1600000.Idx → EReal) (x7 : S1.Idx → EReal) :
    S50000x1.Idx → EReal :=
  addf (F := Ideal)
    (broadcastInDim S50000x1 ![0] Facts₀.bcast_S50000_S50000x1_0
      (Host.scatterAdd (F := Ideal) scatter_S50000_S1600000x1_S1600000_n_0_0_1
        (broadcastInDim S50000 ![] Facts₀.bcast_S_S50000 (constant (F := Ideal) S_ .f32 0x00000000#32))
        (rowIdx x1)
        (mulf (F := Ideal) x3
          (Host.gather gather_S50000_S1600000x1_S1600000_n_0_n_n_0_1_1
            (fun i => shapeCast S50000 S Facts₀.shapeCasts_S50000x1_S50000 i) (colIdx x2)))))
    (broadcastInDim S50000x1 ![0, 1] Facts₀.bcast_S1x1_S50000x1_0_1 (broadcastInDim S1x1 ![1] Facts₀.bcast_S1_S1x1_1 x7))

/-- The flattened column at row `r` is the column at `(r, 0)`. -/
theorem flat_apply (S : S50000x1.Idx → EReal) (r : Fin 50000) :
    shapeCast S50000 S Facts₀.shapeCasts_S50000x1_S50000 (ix1 r) = S (ix2 r (0 : Fin 1)) :=
  shapeCast_apply S _ (ix1 r) (ix2 r (0 : Fin 1)) (by
    rw [Shape.rowMajor_val_two, Shape.rowMajor_val_one]
    show r.val * 1 + 0 = r.val
    omega)

/-- A vector broadcast to a one-column matrix reads, at `(n, 0)`, the vector at `n`. -/
theorem asColumn_apply (Y : S50000.Idx → EReal) (n : Fin 50000) :
    broadcastInDim S50000x1 ![0] Facts₀.bcast_S50000_S50000x1_0 Y (ix2 n (0 : Fin 1)) = Y (ix1 n) :=
  broadcastInDim_apply _ Facts₀.bcast_S50000_S50000x1_0 Y (ix2 n (0 : Fin 1)) (ix1 n) (fun a => match a with
    | ⟨0, _⟩ => by show n.val = if (50000 : Nat) = 1 then 0 else n.val; rw [if_neg (by decide)])

/-- The last bias, broadcast over all nodes, reads its one entry everywhere. -/
theorem bias_apply (x7 : S1.Idx → EReal) (n : Fin 50000) :
    broadcastInDim S50000x1 ![0, 1] Facts₀.bcast_S1x1_S50000x1_0_1 (broadcastInDim S1x1 ![1] Facts₀.bcast_S1_S1x1_1 x7)
      (ix2 n (0 : Fin 1)) = x7 (ix1 (0 : Fin 1)) :=
  (broadcastInDim_apply _ Facts₀.bcast_S1x1_S50000x1_0_1 (broadcastInDim S1x1 ![1] Facts₀.bcast_S1_S1x1_1 x7)
    (ix2 n (0 : Fin 1)) (ix2 (0 : Fin 1) (0 : Fin 1)) (fun a => match a with
      | ⟨0, _⟩ => by show 0 = if (1 : Nat) = 1 then 0 else n.val; rw [if_pos rfl]
      | ⟨1, _⟩ => by show 0 = if (1 : Nat) = 1 then 0 else 0; rw [if_pos rfl])).trans
  (broadcastInDim_apply _ Facts₀.bcast_S1_S1x1_1 x7 (ix2 (0 : Fin 1) (0 : Fin 1)) (ix1 (0 : Fin 1)) (fun a => match a with
      | ⟨0, _⟩ => by show 0 = if (1 : Nat) = 1 then 0 else 0; rw [if_pos rfl]))

/-- The zero vector the edges' products are added into reads zero. -/
theorem zeros_apply (n : Fin 50000) :
    broadcastInDim S50000 ![] Facts₀.bcast_S_S50000 (constant (F := Ideal) S_ .f32 0x00000000#32) (ix1 n) = 0 :=
  Ideal.ofBits_zero_f32

/-- The gather of the kernel's host operations at edge `e`: the table at the edge's clamped source. -/
theorem gathered_apply (T : S50000.Idx → EReal) (ci : IVec S1600000x1 32) (e : Fin 1600000) :
    Host.gather gather_S50000_S1600000x1_S1600000_n_0_n_n_0_1_1 T ci (ix1 e) = T (ix1 (rowOf (by decide) ci e)) :=
  vecGather_apply (N := 50000) (E := 1600000) (by decide)
    Facts₀.gather_S50000_S1600000x1_S1600000_n_0_n_n_0_1_1_wf T ci e

/-- The accumulating scatter of the kernel's host operations at node `n`: the operand there plus the updates of
    the edges that end at `n`. -/
theorem scattered_apply (Z : FVec Ideal S50000 .f32) (ri : IVec S1600000x1 32) (U : FVec Ideal S1600000 .f32) (n : Fin 50000) :
    Host.scatterAdd (F := Ideal) scatter_S50000_S1600000x1_S1600000_n_0_0_1 Z ri U (ix1 n)
      = Z (ix1 n) + ∑ e : Fin 1600000, if lands ri e n then U (ix1 e) else 0 :=
  vecScatterAdd_apply (N := 50000) (E := 1600000) Facts₀.scatter_S50000_S1600000x1_S1600000_n_0_0_1_wf Z ri U n

/-- THE TAIL AT NODE `n`. -/
theorem tail_apply (S : S50000x1.Idx → EReal) (x1 x2 : IVec S1600000 32) (x3 : S1600000.Idx → EReal) (x7 : S1.Idx → EReal)
    (n : Fin 50000) :
    tail S x1 x2 x3 x7 (ix2 n (0 : Fin 1))
      = (0 + ∑ e : Fin 1600000, if lands (rowIdx x1) e n
          then x3 (ix1 e) * S (ix2 (rowOf (by decide) (colIdx x2) e) (0 : Fin 1)) else 0) + x7 (ix1 (0 : Fin 1)) := by
  unfold tail
  rw [addf_apply, asColumn_apply, bias_apply, scattered_apply, zeros_apply]
  refine congrArg (· + x7 (ix1 (0 : Fin 1))) (congrArg (0 + ·) (Finset.sum_congr rfl fun e _ => ?_))
  rw [mulf_apply, gathered_apply, flat_apply]

/-- The tail over the score column is the layer's output, projecting before collecting. -/
theorem tail_scoreCol (X : S50000x128.Idx → EReal) (x1 x2 : IVec S1600000 32) (x3 : S1600000.Idx → EReal)
    (W1 : S128x64.Idx → EReal) (b1 : S64.Idx → EReal) (W2 : S64x1.Idx → EReal) (x7 : S1.Idx → EReal) :
    tail (scoreCol X W1 b1 W2) x1 x2 x3 x7 = nodeOut X (rowIdx x1) (colIdx x2) x3 W1 b1 W2 x7 := by
  funext i
  obtain ⟨n, q, rfl⟩ : ∃ (n : Fin 50000) (q : Fin 1), i = ix2 n q := ⟨i 0, i 1, eq_ix2 i⟩
  obtain rfl : q = 0 := Subsingleton.elim _ _
  rw [tail_apply]
  show _ = collected X (rowIdx x1) (colIdx x2) x3 W1 b1 W2 n + x7 (ix1 (0 : Fin 1))
  refine congrArg (· + x7 (ix1 (0 : Fin 1))) ?_
  unfold collected
  refine congrArg (0 + ·) (Finset.sum_congr rfl fun e _ => ?_)
  rfl

end Cert.KernelIdeal.HostTail

end
-- ==== Proof.RegionResult.lean ====
/-
  The result buffer of the kernel's program.

  After the region the output array holds the score column (`ScoreColumn.final`); the host operations that follow
  read it, and the four arguments no window stages (the two index vectors, the edge weights, the last bias), and
  leave in the result buffer the tail of `HostTail`: the layer's output, projecting before collecting.
-/
import proofs.«160256_j77077483094916_1_alg».proof.Proof.HostTail

set_option maxRecDepth 16384

noncomputable section

namespace Cert.KernelIdeal.RegionResult

open Cert.KernelIdeal Cert.KernelIdeal.Gen Idealize.ShloMosaic Idealize.ShloMosaic.TcCoe Idealize.ShloMosaic.ValueIdx
open Idealize.SL.Sem Idealize.ShloMosaic.StableHlo Cert.NodeOutputs Cert.KernelIdeal.ScoreColumn Cert.KernelIdeal.HostTail

variable (m : (ℓ : Loc nD τ sig) → Buf (Elt Ideal) ℓ)

/-- The buffers as the host operations after the region find them: the pipeline's arrays as the region left them,
    every other buffer as launched. -/
abbrev atTail (c : Dev nD) : Valuation τ sig (Elt Ideal) :=
  Pipeline.withArrays (cfgs 0).spec c (V0 m c) (fun w => (dats m 0 c).arrAt w (cfgs 0).N)

set_option maxHeartbeats 2000000 in
/-- The result buffer is the tail of the operations' operands as the tail finds them. -/
theorem result_raw (c : Dev nD) :
    Pipeline.afterTail₀ cfgs (dats m) 0 (V0 m) [hostOps1] c main_v16
      = tail (atTail m c (Proc.devRef .tc main_v0)) (atTail m c (Proc.devRef .tc main_arg1))
          (atTail m c (Proc.devRef .tc main_arg2)) (atTail m c (Proc.devRef .tc main_arg3))
          (atTail m c (Proc.devRef .tc main_arg7)) := by
  unfold Pipeline.afterTail₀ tail rowIdx colIdx
  show StableHlo.after hostOps1 _ (Proc.devRef .tc main_v16) = _
  after_results_simp
  rfl

/-- The output array as the tail finds it is the score column; the bypassing arguments are as launched. -/
theorem atTail_v0 (c : Dev nD) : atTail m c (Proc.devRef .tc main_v0)
    = scoreCol (V m c main_arg0) (V m c main_arg4) (V m c main_arg5) (V m c main_arg6) :=
  (Pipeline.withArrays_arr spec0 launch0.win.arr_inj c _ _ 4).trans (ScoreColumn.final m c)
theorem atTail_arg1 (c : Dev nD) : atTail m c (Proc.devRef .tc main_arg1) = V m c main_arg1 :=
  Pipeline.withArrays_of_ne _ c (V0 m c) _ main_arg1 (by exact (by decide : ∀ w, Pipeline.arrRef spec0 w ≠ main_arg1))
theorem atTail_arg2 (c : Dev nD) : atTail m c (Proc.devRef .tc main_arg2) = V m c main_arg2 :=
  Pipeline.withArrays_of_ne _ c (V0 m c) _ main_arg2 (by exact (by decide : ∀ w, Pipeline.arrRef spec0 w ≠ main_arg2))
theorem atTail_arg3 (c : Dev nD) : atTail m c (Proc.devRef .tc main_arg3) = V m c main_arg3 :=
  Pipeline.withArrays_of_ne _ c (V0 m c) _ main_arg3 (by exact (by decide : ∀ w, Pipeline.arrRef spec0 w ≠ main_arg3))
theorem atTail_arg7 (c : Dev nD) : atTail m c (Proc.devRef .tc main_arg7) = V m c main_arg7 :=
  Pipeline.withArrays_of_ne _ c (V0 m c) _ main_arg7 (by exact (by decide : ∀ w, Pipeline.arrRef spec0 w ≠ main_arg7))

/-- THE RESULT BUFFER after the whole program: the layer's output of the arguments. -/
theorem result_eq (c : Dev nD) :
    Pipeline.afterTail₀ cfgs (dats m) 0 (V0 m) [hostOps1] c main_v16
      = nodeOut (V m c main_arg0) (rowIdx (V m c main_arg1)) (colIdx (V m c main_arg2)) (V m c main_arg3)
          (V m c main_arg4) (V m c main_arg5) (V m c main_arg6) (V m c main_arg7) := by
  rw [result_raw, atTail_v0, atTail_arg1, atTail_arg2, atTail_arg3, atTail_arg7, tail_scoreCol]

end Cert.KernelIdeal.RegionResult

end
-- ==== Proof.ReferenceRows.lean ====
/-
  The reference computes the layer's output by collecting rows and then projecting.

  Read one operation at a time: the hidden activations are `tanh (x · W1 + b1)` over all 50000 nodes; the gather takes
  each edge's source row (the wrapped column indices read signed and clamped); the product with the broadcast edge
  weights gives 64 weighted activations per edge; the accumulating scatter adds each edge's row into its target's row
  (the row indices read signed, an edge whose target is outside the array dropped), from a zero matrix; the last
  product projects each collected row onto `W2`, and the bias is added.  That is `NodeOutputs.nodeOutRows`, with the
  two index columns the reference's own broadcast index arrays.
-/
import proofs.«160256_j77077483094916_1_alg».proof.Proof.Gen.ReferenceIdeal.Read
import proofs.«160256_j77077483094916_1_alg».proof.Proof.NodeOutputs
import proofs.«160256_j77077483094916_1_alg».proof.Proof.LibEdgeIndex

set_option maxRecDepth 16384

noncomputable section

namespace Cert.ReferenceIdeal.Rows

open Cert.ReferenceIdeal Cert.ReferenceIdeal.Read Idealize.ShloMosaic Idealize.ShloMosaic.ValueIdx Cert.EdgeIndex Cert.NodeOutputs

/-- Activation `j` of node `r` as the reference computes it. -/
theorem hidden_eq (x0 : S50000x128.Idx → EReal) (x4 : S128x64.Idx → EReal) (x5 : S64.Idx → EReal) (r : Fin 50000) (j : Fin 64) :
    val_main_v4 (F := Ideal) x0 x4 x5 (ix2 r j) = hidden x0 x4 x5 r j := by
  have el : ∀ k : Fin 128, lidx_main_v0 (ix2 r j) k = ix2 r k := fun k =>
    funext fun a => Fin.ext (by match a with | ⟨0, _⟩ => rfl | ⟨1, _⟩ => rfl)
  have er : ∀ k : Fin 128, ridx_main_v0 (ix2 r j) k = ix2 k j := fun k =>
    funext fun a => Fin.ext (by match a with | ⟨0, _⟩ => rfl | ⟨1, _⟩ => rfl)
  have eb : idx_main_v1 (idx_main_v2 (ix2 r j)) = ix1 j :=
    funext fun a => Fin.ext (by match a with | ⟨0, _⟩ => rfl)
  rw [val_main_v4_apply, val_main_v3_apply, val_main_v0_apply, val_main_v2_apply, val_main_v1_apply, eb]
  simp only [el, er]
  rfl

/-- The weighted activation `j` of edge `e`: the edge's weight times activation `j` of its (clamped) source. -/
theorem weighted_eq (x0 : S50000x128.Idx → EReal) (x2 : IVec S1600000 32) (x3 : S1600000.Idx → EReal)
    (x4 : S128x64.Idx → EReal) (x5 : S64.Idx → EReal) (e : Fin 1600000) (j : Fin 64) :
    val_main_v14 (F := Ideal) x0 x2 x3 x4 x5 (ix2 e j)
      = x3 (ix1 e) * hidden x0 x4 x5 (rowOf (by decide) (val_main_v11 (F := Ideal) x2) e) j := by
  have ew : idx_main_v5 (idx_main_v13 (ix2 e j)) = ix1 e :=
    funext fun a => Fin.ext (by match a with | ⟨0, _⟩ => rfl)
  rw [val_main_v14_apply, val_main_v13_apply, val_main_v5_apply, ew]
  refine congrArg (x3 (ix1 e) * ·) ?_
  unfold val_main_v12
  refine (rowGather_apply (N := 50000) (D := 64) (E := 1600000) (by decide)
    Facts₀.gather_S50000x64_S1600000x1_S1600000x64_1_0_n_n_0_1_164_wf _ _ e j).trans ?_
  exact hidden_eq x0 x4 x5 _ j

/-- Column `j` of the row collected at node `n`. -/
theorem collected_eq (x0 : S50000x128.Idx → EReal) (x1 x2 : IVec S1600000 32) (x3 : S1600000.Idx → EReal)
    (x4 : S128x64.Idx → EReal) (x5 : S64.Idx → EReal) (n : Fin 50000) (j : Fin 64) :
    val_main_v17 (F := Ideal) x0 x1 x2 x3 x4 x5 (ix2 n j)
      = collectedRow x0 (val_main_v16 (F := Ideal) x1) (val_main_v11 (F := Ideal) x2) x3 x4 x5 n j := by
  unfold val_main_v17 collectedRow
  refine (rowScatterAdd_apply (N := 50000) (D := 64) (E := 1600000)
    Facts₀.scatter_S50000x64_S1600000x1_S1600000x64_1_0_0_1_wf _ _ _ n j).trans ?_
  refine congrArg₂ (· + ·) ?_ (Finset.sum_congr rfl fun e _ => ?_)
  · rw [val_main_v15_apply, val_main_cst_apply]
    exact Ideal.ofBits_zero_f32
  · rw [weighted_eq]

/-- THE REFERENCE'S RESULT is the layer's output, rows collected and then projected. -/
theorem result_eq (x0 : S50000x128.Idx → EReal) (x1 x2 : IVec S1600000 32) (x3 : S1600000.Idx → EReal)
    (x4 : S128x64.Idx → EReal) (x5 : S64.Idx → EReal) (x6 : S64x1.Idx → EReal) (x7 : S1.Idx → EReal) :
    val_main_v21 (F := Ideal) x0 x1 x2 x3 x4 x5 x6 x7
      = nodeOutRows x0 (val_main_v16 (F := Ideal) x1) (val_main_v11 (F := Ideal) x2) x3 x4 x5 x6 x7 := by
  funext i
  obtain ⟨n, q, rfl⟩ : ∃ (n : Fin 50000) (q : Fin 1), i = ix2 n q := ⟨i 0, i 1, eq_ix2 i⟩
  obtain rfl : q = 0 := Subsingleton.elim _ _
  have el : ∀ k : Fin 64, lidx_main_v18 (ix2 n (0 : Fin 1)) k = ix2 n k := fun k =>
    funext fun a => Fin.ext (by match a with | ⟨0, _⟩ => rfl | ⟨1, _⟩ => rfl)
  have er : ∀ k : Fin 64, ridx_main_v18 (ix2 n (0 : Fin 1)) k = ix2 k (0 : Fin 1) := fun k =>
    funext fun a => Fin.ext (by match a with | ⟨0, _⟩ => rfl | ⟨1, _⟩ => rfl)
  have eb : idx_main_v19 (idx_main_v20 (ix2 n (0 : Fin 1))) = ix1 (0 : Fin 1) :=
    funext fun a => Fin.ext (by match a with | ⟨0, _⟩ => rfl)
  rw [val_main_v21_apply, val_main_v18_apply, val_main_v20_apply, val_main_v19_apply, eb]
  simp only [el, er, collected_eq]
  rfl

end Cert.ReferenceIdeal.Rows

end
-- ==== Proof.RealArguments.lean ====
/-
  The precondition says the float inputs are real numbers.

  The precondition is the conjunction, over the six float arguments, of "every entry's absolute value is below
  +infinity".  Over the extended reals the absolute value of `x` is `max x (-x)`, which is `+infinity` at both
  infinities, and the bit pattern 0x7F800000 denotes `+infinity`; so each conjunct says that every entry of its
  array is neither infinity: a real number.  The exchange of sums needs this of the features, the edge weights,
  the two weight matrices and the first bias; the last bias is only ever added and needs nothing.
-/
import proofs.«160256_j77077483094916_1_alg».proof.Pre_finite_inputs
import proofs.«160256_j77077483094916_1_alg».proof.Proof.Gen.Pre_finite_inputs
import proofs.«160256_j77077483094916_1_alg».proof.Proof.NodeOutputs
import Idealize.ShloMosaic.Lib.ReduceAll
import Idealize.ShloMosaic.Lib.Affine
import Idealize.ShloMosaic.Lib.ValueIdx

set_option maxRecDepth 16384

noncomputable section

namespace Cert.Pre_finite_inputs.Finite

open Cert.Pre_finite_inputs Idealize.ShloMosaic Cert.Scores

instance : Subsingleton S_.Idx := ⟨fun a b => funext fun d => d.elim0⟩

/-- An extended real whose absolute value is below `+infinity` is a real number. -/
theorem isReal_of_abs_lt (x : EReal)
    (h : Ideal.cmp .olt (max x (-x)) (Ideal.ofBits .f32 0x7F800000#32) = 1#1) : IsReal x := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- One conjunct of the precondition: `all (|x| < inf)` gives every entry of `x` real. -/
theorem all_real {s : Shape} {axes : List (Fin s.rank)} (x : FVec Ideal s .f32)
    (hb : S_.BroadcastsInDim s (![] : Fin 0 → Fin s.rank)) (hr : s.ReducesTo axes S_) (hu : 0 < S_.numel)
    (h : Host.reduce IntOp.andi (cmpf .olt (Host.absf x) (broadcastInDim s ![] hb (constant (F := Ideal) S_ .f32 0x7F800000#32)))
      (constantI S_ 1 1#1) hr hu ValueIdx.ix0 = 1#1) (i : s.Idx) : IsReal (x i) :=
  isReal_of_abs_lt (x i) (Host.reduce_andi_all _ _ hr hu ValueIdx.ix0 h i)

/-- The precondition gives real features, edge weights, weights, first bias and projection. -/
theorem realInputs (a0 : FVec Ideal S50000x128 .f32) (a1 a2 : IVec S1600000 32) (a3 : FVec Ideal S1600000 .f32)
    (a4 : FVec Ideal S128x64 .f32) (a5 : FVec Ideal S64 .f32) (a6 : FVec Ideal S64x1 .f32) (a7 : FVec Ideal S1 .f32)
    (h : fn (F := Ideal) a0 a1 a2 a3 a4 a5 a6 a7 = fun _ => 1#1) : NodeOutputs.RealInputs a0 a3 a4 a5 a6 := by
  have h0 := congrFun h ValueIdx.ix0
  dsimp only [fn, fn_part1] at h0
  obtain ⟨h0, -⟩ := IntOp.andi_eq_one.mp h0
  obtain ⟨h0, h6⟩ := IntOp.andi_eq_one.mp h0
  obtain ⟨h0, h5⟩ := IntOp.andi_eq_one.mp h0
  obtain ⟨h0, h4⟩ := IntOp.andi_eq_one.mp h0
  obtain ⟨h0, h3⟩ := IntOp.andi_eq_one.mp h0
  exact ⟨all_real a0 _ _ _ h0, all_real a3 _ _ _ h3, all_real a4 _ _ _ h4, all_real a5 _ _ _ h5, all_real a6 _ _ _ h6⟩

end Cert.Pre_finite_inputs.Finite

end
-- ==== Proof.lean ====
/-
  One graph-convolution layer with a scalar output per node, computed two ways, gives equal results on the
  extended reals whenever the float inputs are finite.

  Both programs compute, for every node `n`,

      out n = (∑ over the edges e that end at n of val e * (h (source e) · W2)) + b2,    h r = tanh (x r · W1 + b1),

  where the source of an edge is read from the column indices (a negative index wrapped by adding 50000, then clamped
  into range, as a gather does) and "ends at n" is read from the row indices (exactly, an out-of-range target dropped,
  as an accumulating scatter does).  The kernel projects every node's hidden row onto `W2` first — ten grid points of
  5000 nodes each, two matrix products into zero accumulators with a bias and a hyperbolic tangent between them — and
  its host operations gather, weight and collect SCALARS (`NodeOutputs.nodeOut`; Proof/BlockScores, ScoreColumn,
  HostTail, RegionResult).  The reference gathers, weights and collects whole 64-entry ROWS and projects the collected rows
  (`NodeOutputs.nodeOutRows`; Proof/ReferenceRows).  The two differ by an exchange of the sum over edges with the sum
  over the 64 hidden units, which moves factors across sums and therefore needs every term finite: the precondition
  makes the features, edge weights, weights and first bias real numbers (Proof/RealArguments), the hyperbolic tangent
  of a real is real, and on real entries the exchange is `EdgeSums.project_collect`.  Format changes are the identity
  on the extended reals and the ideal pass rewrote nothing, so `preserves` has no conjunct.
-/
import proofs.«160256_j77077483094916_1_alg».proof.Defs
import proofs.«160256_j77077483094916_1_alg».proof.Proof.Gen.Kernel
import proofs.«160256_j77077483094916_1_alg».proof.Proof.Gen.Kernel.Skeleton
import proofs.«160256_j77077483094916_1_alg».proof.Proof.Gen.Kernel.Launch
import proofs.«160256_j77077483094916_1_alg».proof.Proof.Gen.Kernel.Points
import proofs.«160256_j77077483094916_1_alg».proof.Proof.Gen.Kernel.Frame
import proofs.«160256_j77077483094916_1_alg».proof.Proof.Gen.KernelIdeal
import proofs.«160256_j77077483094916_1_alg».proof.Proof.Gen.KernelIdeal.Skeleton
import proofs.«160256_j77077483094916_1_alg».proof.Proof.Gen.KernelIdeal.Launch
import proofs.«160256_j77077483094916_1_alg».proof.Proof.Gen.KernelIdeal.Points
import proofs.«160256_j77077483094916_1_alg».proof.Proof.Gen.KernelIdeal.Frame
import proofs.«160256_j77077483094916_1_alg».proof.Proof.Gen.ReferenceIdeal
import proofs.«160256_j77077483094916_1_alg».proof.Proof.Gen.Pre_finite_inputs
import proofs.«160256_j77077483094916_1_alg».proof.Proof.Gen.ReferenceIdeal.Run
import proofs.«160256_j77077483094916_1_alg».proof.Proof.Gen.ReferenceIdeal.Read
import proofs.«160256_j77077483094916_1_alg».proof.Proof.HostTail
import proofs.«160256_j77077483094916_1_alg».proof.Proof.RegionResult
import proofs.«160256_j77077483094916_1_alg».proof.Proof.ReferenceRows
import proofs.«160256_j77077483094916_1_alg».proof.Proof.RealArguments
import Idealize.ShloMosaic.Adequacy
import Idealize.ShloMosaic.Init

set_option maxRecDepth 16384

noncomputable section

namespace Cert.Proof

open Idealize.ShloMosaic Idealize.ShloMosaic.TcCoe Idealize.SL.Sem

/-! ## The kernel's run, with its result named -/

section KernelRun

open Cert.KernelIdeal Cert.KernelIdeal.Gen Cert.KernelIdeal.HostTail Cert.KernelIdeal.RegionResult Cert.NodeOutputs

/-- The layer's output as the kernel's program computes it from its argument arrays. -/
def kernelOut (m : (ℓ : Loc nD τ sig) → Buf (Elt Ideal) ℓ) (c : Dev nD) : Buf (Elt Ideal) ((c.tc : Thread nD τ).loc main_v16) :=
  nodeOut (m ((c.tc : Thread nD τ).loc main_arg0)) (rowIdx (m ((c.tc : Thread nD τ).loc main_arg1)))
    (colIdx (m ((c.tc : Thread nD τ).loc main_arg2))) (m ((c.tc : Thread nD τ).loc main_arg3))
    (m ((c.tc : Thread nD τ).loc main_arg4)) (m ((c.tc : Thread nD τ).loc main_arg5))
    (m ((c.tc : Thread nD τ).loc main_arg6)) (m ((c.tc : Thread nD τ).loc main_arg7))

/-- Every weakly fair execution of the idealized kernel's program ends with the result buffer at the layer's output
    and the arguments unchanged: the generated frame run, its result buffer read through the host operations after
    the region. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v16) = kernelOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨((h c).2 main_v16 (Pipeline.mem_restRefs_of main_v16 (by decide) (by decide))).trans (result_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).1 1).trans (((dats m 0 c).arrAt_in 1 rfl _).trans ((A_eq m c 1).trans (V_main_arg4 m c))),
      ((h c).1 2).trans (((dats m 0 c).arrAt_in 2 rfl _).trans ((A_eq m c 2).trans (V_main_arg5 m c))),
      ((h c).1 3).trans (((dats m 0 c).arrAt_in 3 rfl _).trans ((A_eq m c 3).trans (V_main_arg6 m c))),
      ((h c).2 main_arg7 (Pipeline.mem_restRefs_of main_arg7 (by decide) (by decide))).trans (W_main_arg7 m (dats m) c)⟩)
    (run_main m ρ)

end KernelRun

/-! ## The claims -/

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The reference lays the target indices out as a column by the same broadcast as the kernel's host operations, -/
theorem rowIdx_eq (x1 : IVec Cert.ReferenceIdeal.S1600000 32) :
    Cert.ReferenceIdeal.Read.val_main_v16 (F := Ideal) x1 = Cert.KernelIdeal.HostTail.rowIdx x1 := rfl

/-- and wraps and lays out the source indices by the same operations. -/
theorem colIdx_eq (x2 : IVec Cert.ReferenceIdeal.S1600000 32) :
    Cert.ReferenceIdeal.Read.val_main_v11 (F := Ideal) x2 = Cert.KernelIdeal.HostTail.colIdx x2 := rfl

/-- From memories that agree on the arguments, the idealized kernel's program and the idealized reference both end at
    the layer's output: the kernel's by `kernel_run`; the reference's result is the rows-first arrangement
    (`ReferenceRows.result_eq`), equal to the scores-first one because the precondition makes the inputs real
    (`NodeOutputs.nodeOutRows_eq`). -/
theorem algebraic : Cert.algebraic_KernelIdeal_ReferenceIdeal := by
  intro m ρ m' ρ' hpre hagree
  refine ⟨kernelOut m, kernel_run m ρ, ?_⟩
  refine (θ_run Cert.ReferenceIdeal.defs _ _).mono (fun _ h c => ⟨(h c).1.trans ?_, (h c).2⟩)
    (Cert.ReferenceIdeal.Value.run (F := Ideal) m' ρ')
  have hr := Cert.Pre_finite_inputs.Finite.realInputs _ _ _ _ _ _ _ _ (hpre c)
  rw [Cert.ReferenceIdeal.Read.val_main_v21_eq, Cert.ReferenceIdeal.Rows.result_eq, (hagree c).1, (hagree c).2.1,
    (hagree c).2.2.1, (hagree c).2.2.2.1, (hagree c).2.2.2.2.1, (hagree c).2.2.2.2.2.1, (hagree c).2.2.2.2.2.2.1,
    (hagree c).2.2.2.2.2.2.2, rowIdx_eq, colIdx_eq]
  exact Cert.NodeOutputs.nodeOutRows_eq hr _ _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
